-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8192x2048 .f32) (main_arg1 : FVec F S2048x2048 .f32) (main_arg2 : FVec F S2048 .f32) (main_arg3 : FVec F S_ .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S1x1 : Shape := ⟨2, ![1, 1]⟩
abbrev S1024x2048 : Shape := ⟨2, ![1024, 2048]⟩
abbrev S256x2048 : Shape := ⟨2, ![256, 2048]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 21
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S1024x256, .f32⟩
  | .local _ .vmem, ⟨11, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S2048 : S_.BroadcastsInDim S2048 (![] : Fin 0 → Fin S2048.rank)
  shapeCasts_S2048_S1x2048 : S2048.ShapeCasts S1x2048
  shapeCasts_S_S1x1 : S_.ShapeCasts S1x1
  bcast_S1x2048_S2048x2048_0_1 : S1x2048.BroadcastsInDim S2048x2048 (![0, 1] : Fin 2 → Fin S2048x2048.rank)
  reducesTo_S2048x2048_S2048_d1 : S2048x2048.ReducesTo [1] S2048
  h_S_ : 0 < S_.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x2048_S1024x2048_0_0 : ∀ a, (![0, 0] : Fin 2 → Nat) a + S1024x2048.size a ≤ S1024x2048.size a
  h_S1024x2048 : 0 < S1024x2048.numel
  inb_S256x2048_S256x2048_0_0 : ∀ a, (![0, 0] : Fin 2 → Nat) a + S256x2048.size a ≤ S256x2048.size a
  h_S256x2048 : 0 < S256x2048.numel
  broadcasts_S1x2048_S1024x2048 : S1x2048.Broadcasts S1024x2048
  broadcasts_S1x2048_S256x2048 : S1x2048.Broadcasts S256x2048
  reduces_S1024x2048_S1024 : S1024x2048.Reduces [1] S1024
  shapeCasts_S1024_S1024x1 : S1024.ShapeCasts S1024x1
  bitsLt_bf16_f32 : FTy.bits .bf16 < FTy.bits .f32
  broadcasts_S1024x1_S1024x256 : S1024x1.Broadcasts S1024x256
  broadcasts_S1x256_S1024x256 : S1x256.Broadcasts S1024x256
  broadcasts_S1x1_S1024x256 : S1x1.Broadcasts S1024x256
  inb_S1024x256_S1024x256_0_0 : ∀ a, (![0, 0] : Fin 2 → Nat) a + S1024x256.size a ≤ S1024x256.size a
  h_S1024x256 : 0 < S1024x256.numel
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .f32 = 32 ∨ (Rect.block (s := S1x2048) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x2048.size a
  hwx0_6 : ∀ i : grid0.Coords, EltTy.bits .f32 = 32 ∨ (Rect.block (s := S8192x2048) S1024x256.size (cc0_transform_6 i) (hinb0_6 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S1x2048_S2048x2048_0_1 : S1x2048.BroadcastsInDim S2048x2048 (![0, 1] : Fin 2 → Fin S2048x2048.rank)
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S2048x2048_S2048_d1 : S2048x2048.ReducesTo [1] S2048
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.CellLaw.lean ====
import Idealize.ShloMosaic.PureOps.Ideal.Laws

/-!
# One cell of the periodic kernel, in the two arrangements

For rows `a, b : Fin 2048 → EReal` (a row of `x1`, a row of `x2`) and the scales `L k = e^(l k)`, the period
`P = e^p`, one output cell is

  `exp (-2 · sin² (π' · D / P) / L_j²)`,  `D = √ max (‖a/L‖² + ‖b/L‖² − 2 ⟨a/L, b/L⟩, 0)`

(`π'` the single-precision word of 3.1415926). One arrangement divides by `L`, `P` and `L_j²`; the other multiplies
by the reciprocals `1/L`, `π'/P`, `(1/L_j)·(1/L_j)`. Because `L` and `P` are exponentials of REAL numbers they are
nonzero reals, a quotient by them is the product with the real reciprocal on every extended real, and the two
arrangements differ only by the commutativity and associativity of the product and by `1/L · 1/L = 1/(L·L)` in ℝ.
The rows `a`, `b` themselves may hold anything: no law used here moves a factor across a sum.
-/

noncomputable section

namespace Cert.Periodic

open Idealize.ShloMosaic

/-- The words the two programs share, as extended reals: 0, 2, −2 and the single-precision 3.1415926. -/
abbrev wZero : EReal := Ideal.ofBits .f32 0x00000000#32
abbrev wTwo : EReal := Ideal.ofBits .f32 0x40000000#32
abbrev wNegTwo : EReal := Ideal.ofBits .f32 0xC0000000#32
abbrev wPi : EReal := Ideal.ofBits .f32 0x40490FDA#32
/-- The word of 1.0, which only the reciprocal arrangement has. -/
abbrev wOne : EReal := Ideal.ofBits .f32 0x3F800000#32

/-- The word `0x3F800000` denotes the real number one. -/
theorem wOne_eq : wOne = 1 := by
  simp [wOne, Ideal.ofBits, Ideal.ieee, -EReal.coe_mul]; norm_num

/-- The clamped distance `√ max (sa + sb − 2·cr, 0)` from the two squared norms and the inner product. -/
def dist (sa sb cr : EReal) : EReal := Ideal.sqrt (max ((sa + sb) - wTwo * cr) wZero)

/-- A cell in the reciprocal arrangement: rows scaled by `r`, the second squared norm `s2` given, the sine's argument
    `D · q`, the exponent `((−2·S)·S)·r2`. -/
def cellMul (a b r : Fin 2048 → EReal) (r2 s2 q : EReal) : EReal :=
  Ideal.exp (((wNegTwo * Ideal.sin (dist (∑ k, (a k * r k) * (a k * r k)) s2 (∑ k, (a k * r k) * (b k * r k)) * q))
      * Ideal.sin (dist (∑ k, (a k * r k) * (a k * r k)) s2 (∑ k, (a k * r k) * (b k * r k)) * q)) * r2)

/-- A cell in the quotient arrangement: rows divided by `L`, the sine's argument `(π'·D)/P`, the exponent
    `(−2·(S·S))/(Lj·Lj)`; each squared norm is a sum started from the zero word. -/
def cellDiv (a b L : Fin 2048 → EReal) (Lj P : EReal) : EReal :=
  Ideal.exp (Ideal.div (wNegTwo *
      (Ideal.sin (Ideal.div (wPi * dist (wZero + ∑ k, Ideal.div (a k) (L k) * Ideal.div (a k) (L k))
            (wZero + ∑ k, Ideal.div (b k) (L k) * Ideal.div (b k) (L k))
            (∑ k, Ideal.div (a k) (L k) * Ideal.div (b k) (L k))) P)
        * Ideal.sin (Ideal.div (wPi * dist (wZero + ∑ k, Ideal.div (a k) (L k) * Ideal.div (a k) (L k))
            (wZero + ∑ k, Ideal.div (b k) (L k) * Ideal.div (b k) (L k))
            (∑ k, Ideal.div (a k) (L k) * Ideal.div (b k) (L k))) P))) (Lj * Lj))

/-- Multiplying by the reciprocal `1 / e^t` is dividing by `e^t`, on every extended real. -/
theorem mul_recip_exp (x : EReal) (t : ℝ) :
    x * Ideal.div wOne (Ideal.exp (t : EReal)) = Ideal.div x (Ideal.exp (t : EReal)) := by
  rw [Ideal.exp_coe, Ideal.div_coe (Real.exp_ne_zero t), Ideal.div_coe (Real.exp_ne_zero t), wOne_eq, one_mul]

/-- The tail of a cell after the distance `D`: `((−2·S)·S)·(1/E·1/E)` with `S = sin (D·(π'/Q))` is
    `(−2·(S'·S'))/(E·E)` with `S' = sin ((π'·D)/Q)`, for `E = e^u`, `Q = e^p`. -/
theorem tail_eq (D : EReal) (u p : ℝ) :
    ((wNegTwo * Ideal.sin (D * Ideal.div wPi (Ideal.exp (p : EReal)))) * Ideal.sin (D * Ideal.div wPi (Ideal.exp (p : EReal))))
        * (Ideal.div wOne (Ideal.exp (u : EReal)) * Ideal.div wOne (Ideal.exp (u : EReal)))
      = Ideal.div (wNegTwo * (Ideal.sin (Ideal.div (wPi * D) (Ideal.exp (p : EReal))) * Ideal.sin (Ideal.div (wPi * D) (Ideal.exp (p : EReal)))))
          (Ideal.exp (u : EReal) * Ideal.exp (u : EReal)) := by
  have harg : D * Ideal.div wPi (Ideal.exp (p : EReal)) = Ideal.div (wPi * D) (Ideal.exp (p : EReal)) := by
    rw [Ideal.exp_coe, Ideal.div_coe (Real.exp_ne_zero p), Ideal.div_coe (Real.exp_ne_zero p), mul_left_comm, mul_assoc]
  have hden : Ideal.exp (u : EReal) * Ideal.exp (u : EReal) = ((Real.exp u * Real.exp u : ℝ) : EReal) := by
    rw [Ideal.exp_coe, EReal.coe_mul]
  have hrec : Ideal.div wOne (Ideal.exp (u : EReal)) * Ideal.div wOne (Ideal.exp (u : EReal))
      = ((1 / (Real.exp u * Real.exp u) : ℝ) : EReal) := by
    rw [Ideal.exp_coe, Ideal.div_coe (Real.exp_ne_zero u), wOne_eq, one_mul, ← EReal.coe_mul]
    congr 1
    field_simp
  rw [harg, hden, hrec, Ideal.div_coe (mul_ne_zero (Real.exp_ne_zero u) (Real.exp_ne_zero u)), mul_assoc wNegTwo]

/-- THE LAW: with the scales the exponentials of real numbers `l` and the period the exponential of a real `p`, the
    reciprocal arrangement fed `1/L`, `(1/L_j)²`, the second row's squared norm of products, and `π'/P` is the quotient
    arrangement, for ANY rows `a`, `b` of extended reals. -/
theorem cellMul_eq_cellDiv (a b : Fin 2048 → EReal) (l : Fin 2048 → ℝ) (p : ℝ) (j : Fin 2048) :
    cellMul a b (fun k => Ideal.div wOne (Ideal.exp ((l k : ℝ) : EReal)))
        (Ideal.div wOne (Ideal.exp ((l j : ℝ) : EReal)) * Ideal.div wOne (Ideal.exp ((l j : ℝ) : EReal)))
        (wZero + ∑ k, (b k * Ideal.div wOne (Ideal.exp ((l k : ℝ) : EReal))) * (b k * Ideal.div wOne (Ideal.exp ((l k : ℝ) : EReal))))
        (Ideal.div wPi (Ideal.exp (p : EReal)))
      = cellDiv a b (fun k => Ideal.exp ((l k : ℝ) : EReal)) (Ideal.exp ((l j : ℝ) : EReal)) (Ideal.exp (p : EReal)) := by
  unfold cellMul cellDiv
  dsimp only
  rw [tail_eq]
  simp only [mul_recip_exp, wZero, Ideal.ofBits_zero_f32, zero_add]

end Cert.Periodic

end
-- ==== Proof.KernelCell.lean ====
import proofs.«168542_j12438225289613_2_alg».proof.Proof.Gen.KernelIdeal.Skeleton
import proofs.«168542_j12438225289613_2_alg».proof.Proof.LibKeepdims
import proofs.«168542_j12438225289613_2_alg».proof.Proof.CellLaw
import Idealize.ShloMosaic.Lib.Pipeline.Value
import Idealize.ShloMosaic.Lib.ValueIdx
import Idealize.ShloMosaic.Lib.ValueLayout
import Idealize.ShloMosaic.PureOps.Ideal.Laws

/-!
# The kernel body's value at one index of its output block

The body reads six blocks — the reciprocal scales `r` [1,2048], `r²` for this column tile [1,256], the second
operand's squared row norms for this column tile [1,256], `π'/P` [1,1], a [1024,2048] block of `x1` and a [256,2048]
block of `x2` — and stores one [1024,256] block. At `(p, q)` that block holds the reciprocal-arrangement cell
(`Cert.Periodic.cellMul`) of row `p` of the `x1` block and row `q` of the `x2` block: the lane sum is a sum over
`k < 2048`, the matrix product into a zero accumulator the sum of products over `k`, the changes of float format the
identity, and every broadcast reads its one row, column or entry.
-/

noncomputable section

namespace Cert.Periodic.KernelSide

open Cert.KernelIdeal Cert.KernelIdeal.Gen Idealize.ShloMosaic Idealize.ShloMosaic.ValueIdx Cert.Periodic

/-- The lane sum of a [1024,2048] block, read at row `p`: the sum over the 2048 lanes of that row. -/
theorem rowsum_apply (x : FVec Ideal S1024x2048 .f32) (hφ : FKind.Formats .f32)
    (hacc : (0x00000000#32 : BitVec 32) = 0x00000000#32) (p : Fin 1024) :
    multiReduction .add [1] S1024 x 0x00000000#32 reduces_S1024x2048_S1024 hφ hacc (ix1 p) = ∑ k : Fin 2048, x (ix2 p k) := by
  refine (Ideal.multiReduction_add_single x 0x00000000#32 reduces_S1024x2048_S1024 hφ hacc (ix1 p)).trans ?_
  exact Finset.sum_congr rfl fun k _ => congrArg x (funext fun a => Fin.ext (by match a with | ⟨0, _⟩ => rfl | ⟨1, _⟩ => rfl))

/-- The product's left operand is read on the row the output index names. -/
theorem lhs_row (i : S1024x256.Idx) (c : dot_S1024x2048_S256x2048_S1024x256_1_1_0_0_n_n.contr.Idx) :
    (dot_S1024x2048_S256x2048_S1024x256_1_1_0_0_n_n.lhsIdx i c 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl

/-- The product's right operand is read on the row the output's column names: both operands are contracted along their lanes. -/
theorem rhs_row (i : S1024x256.Idx) (c : dot_S1024x2048_S256x2048_S1024x256_1_1_0_0_n_n.contr.Idx) :
    (dot_S1024x2048_S256x2048_S1024x256_1_1_0_0_n_n.rhsIdx i c 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl

/-- The matrix product of a [1024,2048] block with a [256,2048] block contracted along their lanes, into a zero
    accumulator, read at `(p, q)`: the sum over `k` of row `p` of the first times row `q` of the second. -/
theorem cross_apply (l : FVec Ideal S1024x2048 .bf16) (r : FVec Ideal S256x2048 .bf16) (p : Fin 1024) (q : Fin 256) :
    matmul dot_S1024x2048_S256x2048_S1024x256_1_1_0_0_n_n none l r (constant S1024x256 .f32 0x00000000#32) (ix2 p q)
      = ∑ k : Fin 2048, l (ix2 p k) * r (ix2 q k) := by
  refine (Ideal.matmul_constant_zero_apply dot_S1024x2048_S256x2048_S1024x256_1_1_0_0_n_n none l r (ix2 p q)).trans ?_
  rw [← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 p q) ((contrEquiv1 dot_S1024x2048_S256x2048_S1024x256_1_1_0_0_n_n 2048 rfl rfl).symm k) = ix2 p k := funext fun a => Fin.ext (by
    match a with
    | ⟨0, _⟩ => exact lhs_row _ _
    | ⟨1, _⟩ => exact (dot_S1024x2048_S256x2048_S1024x256_1_1_0_0_n_n.lhsIdx_val_of_single rfl _ _).trans hk)
  have er : dot_S1024x2048_S256x2048_S1024x256_1_1_0_0_n_n.rhsIdx (ix2 p q) ((contrEquiv1 dot_S1024x2048_S256x2048_S1024x256_1_1_0_0_n_n 2048 rfl rfl).symm k) = ix2 q k := funext fun a => Fin.ext (by
    match a with
    | ⟨0, _⟩ => exact rhs_row _ _
    | ⟨1, _⟩ => exact (dot_S1024x2048_S256x2048_S1024x256_1_1_0_0_n_n.rhsIdx_val_of_single rfl _ _).trans hk)
  rw [el, er]

/-- The one entry of a [1,1] block, broadcast to [1024,256], read anywhere. -/
theorem bcast_entry_apply (v : FVec Ideal S1x1 .f32) (p : Fin 1024) (q : Fin 256) :
    broadcastTo S1024x256 v broadcasts_S1x1_S1024x256 (ix2 p q) = v (ix2 (0 : Fin 1) (0 : Fin 1)) := by
  refine broadcastTo_apply v broadcasts_S1x1_S1024x256 (ix2 p q) (ix2 (0 : Fin 1) (0 : Fin 1)) fun ax => ?_
  match ax with
  | ⟨0, _⟩ => rfl
  | ⟨1, _⟩ => rfl

/-- The first operand's squared row norm: a lane sum, cast to a column, broadcast along the lanes, read at `(p, q)`. -/
theorem sqnorm_col_apply (x : FVec Ideal S1024x2048 .f32) (hφ : FKind.Formats .f32)
    (hacc : (0x00000000#32 : BitVec 32) = 0x00000000#32) (p : Fin 1024) (q : Fin 256) :
    broadcastTo S1024x256 (shapeCast S1024x1 (multiReduction .add [1] S1024 x 0x00000000#32 reduces_S1024x2048_S1024 hφ hacc)
        shapeCasts_S1024_S1024x1) broadcasts_S1024x1_S1024x256 (ix2 p q) = ∑ k : Fin 2048, x (ix2 p k) := by
  rw [Cert.Keepdims.broadcastTo_a1_ab_apply, Cert.Keepdims.shapeCast_a_a1_apply, rowsum_apply]

/-- THE BODY'S VALUE at `(p, q)` of its output block. -/
theorem pay_apply (v0 : FVec Ideal S1x2048 .f32) (v2 v4 : FVec Ideal S1x256 .f32) (v6 : FVec Ideal S1x1 .f32)
    (v8 : FVec Ideal S1024x2048 .f32) (v9 : FVec Ideal S256x2048 .f32) (p : Fin 1024) (q : Fin 256) :
    k0_pay1 (F := Ideal) v0 v2 v4 v6 v8 v9 (ix2 p q)
      = cellMul (fun k => v8 (ix2 p k)) (fun k => v9 (ix2 q k)) (fun k => v0 (ix2 (0 : Fin 1) k))
          (v2 (ix2 (0 : Fin 1) q)) (v4 (ix2 (0 : Fin 1) q)) (v6 (ix2 (0 : Fin 1) (0 : Fin 1))) := by
  have hr1 : ∀ (a : Fin 1024) (k : Fin 2048), broadcastTo S1024x2048 v0 broadcasts_S1x2048_S1024x2048 (ix2 a k) = v0 (ix2 (0 : Fin 1) k) :=
    fun a k => broadcastTo_1b_ab_apply v0 broadcasts_S1x2048_S1024x2048 a k
  have hr2 : ∀ (a : Fin 256) (k : Fin 2048), broadcastTo S256x2048 v0 broadcasts_S1x2048_S256x2048 (ix2 a k) = v0 (ix2 (0 : Fin 1) k) :=
    fun a k => broadcastTo_1b_ab_apply v0 broadcasts_S1x2048_S256x2048 a k
  unfold k0_pay1 cellMul dist
  simp only [shapeCast_self]
  show Ideal.exp ((((Ideal.ofBits .f32 0xC0000000#32) * Ideal.sin (Ideal.sqrt (max ((_ + _) - (Ideal.ofBits .f32 0x40000000#32) * _) (Ideal.ofBits .f32 0x00000000#32)) * _))
      * Ideal.sin (Ideal.sqrt (max ((_ + _) - (Ideal.ofBits .f32 0x40000000#32) * _) (Ideal.ofBits .f32 0x00000000#32)) * _)) * _) = _
  rw [sqnorm_col_apply, cross_apply, bcast_entry_apply, broadcastTo_1b_ab_apply v4, broadcastTo_1b_ab_apply v2]
  simp only [truncf_apply, mulf_apply, hr1, hr2]

end Cert.Periodic.KernelSide

end
-- ==== Proof.HostPrefix.lean ====
import proofs.«168542_j12438225289613_2_alg».proof.Proof.Gen.KernelIdeal.Frame
import proofs.«168542_j12438225289613_2_alg».proof.Proof.CellLaw
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
# The four arrays the host prepares before the launch

Before the kernel is launched the host computes, from the log-scales `x2` [2048], the log-period `x3` [] and the
second operand `x1` [2048,2048]: the row of reciprocals `1/e^{x2_k}` [1,2048]; its square, entry by entry; the row of
squared norms of the rows of `x1` scaled by the reciprocals, `0 + Σ_k (x1_{jk}·(1/e^{x2_k}))²` [1,2048]; and
`π'/e^{x3}` [1,1]. Each is named here as a function of the arguments, shown to be what the launch finds in the
corresponding buffer, and read at an index.
-/

noncomputable section

namespace Cert.Periodic.KernelSide

open Cert.KernelIdeal Cert.KernelIdeal.Gen Idealize.ShloMosaic Idealize.ShloMosaic.TcCoe Idealize.SL.Sem
open Idealize.ShloMosaic.StableHlo Idealize.ShloMosaic.ValueIdx Cert.Periodic

/-- The row of reciprocal scales. -/
def recipRow (x2 : FVec Ideal S2048 .f32) : FVec Ideal S1x2048 .f32 :=
  shapeCast S1x2048 (Host.divf (F := Ideal) (broadcastInDim S2048 ![] bcast_S_S2048 (constant (F := Ideal) S_ .f32 0x3F800000#32))
    (Host.exp (F := Ideal) x2)) shapeCasts_S2048_S1x2048

/-- The row of squared reciprocal scales. -/
def recipSqRow (x2 : FVec Ideal S2048 .f32) : FVec Ideal S1x2048 .f32 := mulf (recipRow x2) (recipRow x2)

/-- The row of squared norms of the scaled rows of the second operand. -/
def sqnormRow (x1 : FVec Ideal S2048x2048 .f32) (x2 : FVec Ideal S2048 .f32) : FVec Ideal S1x2048 .f32 :=
  shapeCast S1x2048 (Host.reduceAdd (F := Ideal)
      (mulf (mulf x1 (broadcastInDim S2048x2048 ![0, 1] bcast_S1x2048_S2048x2048_0_1 (recipRow x2)))
        (mulf x1 (broadcastInDim S2048x2048 ![0, 1] bcast_S1x2048_S2048x2048_0_1 (recipRow x2))))
      (constant (F := Ideal) S_ .f32 0x00000000#32) reducesTo_S2048x2048_S2048_d1 h_S_) shapeCasts_S2048_S1x2048

/-- The constant over the period, as a [1,1] array. -/
def piOverP (x3 : FVec Ideal S_ .f32) : FVec Ideal S1x1 .f32 :=
  shapeCast S1x1 (Host.divf (F := Ideal) (constant (F := Ideal) S_ .f32 0x40490FDA#32) (Host.exp (F := Ideal) x3)) shapeCasts_S_S1x1

/-! ## What the launch finds -/

variable (m : (ℓ : Loc nD τ sig) → Buf (Elt Ideal) ℓ)

theorem V_recip (c : Dev nD) : (V m c main_v3 : S1x2048.Idx → EReal) = recipRow (m ((c : Thread nD τ).loc main_arg2)) := by
  dsimp only [Gen.V, Gen.hostOps0]; after_results; rfl

theorem V_recipSq (c : Dev nD) : (V m c main_v4 : S1x2048.Idx → EReal) = recipSqRow (m ((c : Thread nD τ).loc main_arg2)) := by
  dsimp only [Gen.V, Gen.hostOps0]; after_results; rfl

theorem V_sqnorm (c : Dev nD) : (V m c main_v12 : S1x2048.Idx → EReal)
    = sqnormRow (m ((c : Thread nD τ).loc main_arg1)) (m ((c : Thread nD τ).loc main_arg2)) := by
  dsimp only [Gen.V, Gen.hostOps0]; after_results; rfl

theorem V_piOverP (c : Dev nD) : (V m c main_v7 : S1x1.Idx → EReal) = piOverP (m ((c : Thread nD τ).loc main_arg3)) := by
  dsimp only [Gen.V, Gen.hostOps0]; after_results; rfl

/-! ## Each read at an index -/

theorem recipRow_apply (x2 : FVec Ideal S2048 .f32) (u : Fin 1) (k : Fin 2048) :
    recipRow x2 (ix2 u k) = Ideal.div wOne (Ideal.exp (x2 (ix1 k))) := by
  unfold recipRow
  rw [shapeCast_a_1a_apply]
  rfl

theorem recipSqRow_apply (x2 : FVec Ideal S2048 .f32) (u : Fin 1) (k : Fin 2048) :
    recipSqRow x2 (ix2 u k) = Ideal.div wOne (Ideal.exp (x2 (ix1 k))) * Ideal.div wOne (Ideal.exp (x2 (ix1 k))) := by
  show recipRow x2 (ix2 u k) * recipRow x2 (ix2 u k) = _
  rw [recipRow_apply]

/-- One row of reciprocals broadcast over the 2048 rows of the second operand, read at `(j, k)`. -/
theorem recipBcast_apply (x2 : FVec Ideal S2048 .f32) (j k : Fin 2048) :
    broadcastInDim S2048x2048 ![0, 1] bcast_S1x2048_S2048x2048_0_1 (recipRow x2) (ix2 j k)
      = Ideal.div wOne (Ideal.exp (x2 (ix1 k))) := by
  refine (broadcastInDim_apply _ bcast_S1x2048_S2048x2048_0_1 (recipRow x2) (ix2 j k) (ix2 (0 : Fin 1) k) (fun a => match a with
    | ⟨0, _⟩ => by show 0 = if (1 : Nat) = 1 then 0 else j.val; rw [if_pos rfl]
    | ⟨1, _⟩ => by show k.val = if (2048 : Nat) = 1 then 0 else k.val; rw [if_neg (by decide)])).trans ?_
  exact recipRow_apply x2 0 k

/-- The host's sum along the rows of a [2048,2048] array from the zero word, read at `j`. -/
theorem hostRowsum_apply (y : FVec Ideal S2048x2048 .f32) (j : Fin 2048) :
    Host.reduceAdd (F := Ideal) y (constant (F := Ideal) S_ .f32 0x00000000#32) reducesTo_S2048x2048_S2048_d1 h_S_ (ix1 j)
      = wZero + ∑ k : Fin 2048, y (ix2 j k) := by
  simp only [Host.reduceAdd, Ideal.hostReduceAdd_def]
  rw [Ideal.hostReduceAdd_single reducesTo_S2048x2048_S2048_d1 (by decide)]
  refine congrArg (_ + ·) (Finset.sum_congr rfl fun k _ => ?_)
  exact congrArg y (funext fun a => Fin.ext (by match a with | ⟨0, _⟩ => rfl | ⟨1, _⟩ => rfl))

theorem sqnormRow_apply (x1 : FVec Ideal S2048x2048 .f32) (x2 : FVec Ideal S2048 .f32) (u : Fin 1) (j : Fin 2048) :
    sqnormRow x1 x2 (ix2 u j) = wZero + ∑ k : Fin 2048, (x1 (ix2 j k) * Ideal.div wOne (Ideal.exp (x2 (ix1 k))))
        * (x1 (ix2 j k) * Ideal.div wOne (Ideal.exp (x2 (ix1 k)))) := by
  unfold sqnormRow
  rw [shapeCast_a_1a_apply, hostRowsum_apply]
  refine congrArg (wZero + ·) (Finset.sum_congr rfl fun k _ => ?_)
  show (x1 (ix2 j k) * broadcastInDim S2048x2048 ![0, 1] bcast_S1x2048_S2048x2048_0_1 (recipRow x2) (ix2 j k))
      * (x1 (ix2 j k) * broadcastInDim S2048x2048 ![0, 1] bcast_S1x2048_S2048x2048_0_1 (recipRow x2) (ix2 j k)) = _
  rw [recipBcast_apply]

theorem piOverP_apply (x3 : FVec Ideal S_ .f32) (j : S1x1.Idx) :
    piOverP x3 j = Ideal.div wPi (Ideal.exp (x3 ix0)) := by
  unfold piOverP shapeCast
  exact congrArg (fun k : S_.Idx => Ideal.div wPi (Ideal.exp (x3 k))) (eq_ix0 _)

end Cert.Periodic.KernelSide

end
-- ==== Proof.KernelArray.lean ====
import proofs.«168542_j12438225289613_2_alg».proof.Proof.Gen.KernelIdeal.Value
import proofs.«168542_j12438225289613_2_alg».proof.Proof.KernelCell
import proofs.«168542_j12438225289613_2_alg».proof.Proof.HostPrefix
import Idealize.ShloMosaic.Lib.Pipeline.Value
import Idealize.ShloMosaic.Lib.Tactic

/-!
# From the kernel's blocks to its whole result array

The grid is 8 × 8 and the point `(g, h)` writes the [1024,256] block at block index `(g, h)` of the [8192,2048]
result; it reads rows `1024g … 1024g+1023` of the first operand, rows `256h … 256h+255` of the second, columns
`256h … 256h+255` of the squared-reciprocal row and of the squared-norm row, and the whole reciprocal row and the
[1,1] constant. So entry `(A, J)` of the result is the reciprocal-arrangement cell of row `A` of the first operand
and row `J` of the second with the `J`-th squared reciprocal and squared norm: one function `outOf` of the six
arrays the launch finds, and the 64 blocks cover the array.
-/

noncomputable section

namespace Cert.Periodic.KernelSide

open Cert.KernelIdeal Cert.KernelIdeal.Gen Idealize.ShloMosaic Idealize.ShloMosaic.TcCoe Idealize.SL.Sem
open Idealize.ShloMosaic.ValueIdx Cert.Periodic
open Idealize.ShloMosaic.Pipeline (Dat)

/-- Entry `(A, J)` of the result from the six arrays the launch finds. -/
def cellAt (X1 : FVec Ideal S8192x2048 .f32) (X2 : FVec Ideal S2048x2048 .f32) (R R2 SQ : FVec Ideal S1x2048 .f32)
    (Q : FVec Ideal S1x1 .f32) (A : Fin 8192) (J : Fin 2048) : EReal :=
  cellMul (fun k => X1 (ix2 A k)) (fun k => X2 (ix2 J k)) (fun k => R (ix2 (0 : Fin 1) k)) (R2 (ix2 (0 : Fin 1) J))
    (SQ (ix2 (0 : Fin 1) J)) (Q (ix2 (0 : Fin 1) (0 : Fin 1)))

/-- The whole result as one function of those six arrays. -/
def outOf (X1 : FVec Ideal S8192x2048 .f32) (X2 : FVec Ideal S2048x2048 .f32) (R R2 SQ : FVec Ideal S1x2048 .f32)
    (Q : FVec Ideal S1x1 .f32) : FVec Ideal S8192x2048 .f32 :=
  fun i => cellAt X1 X2 R R2 SQ Q ⟨(i 0).val, idx2_lt0 i⟩ ⟨(i 1).val, idx2_lt1 i⟩

theorem outOf_apply (X1 : FVec Ideal S8192x2048 .f32) (X2 : FVec Ideal S2048x2048 .f32) (R R2 SQ : FVec Ideal S1x2048 .f32)
    (Q : FVec Ideal S1x1 .f32) (A : Fin 8192) (J : Fin 2048) : outOf X1 X2 R R2 SQ Q (ix2 A J) = cellAt X1 X2 R R2 SQ Q A J := rfl

/-- A cell depends on its rows and scalars only through their values. -/
theorem cellMul_congr {a a' b b' r r' : Fin 2048 → EReal} {r2 r2' s2 s2' q q' : EReal} (ha : ∀ k, a k = a' k)
    (hb : ∀ k, b k = b' k) (hr : ∀ k, r k = r' k) (h2 : r2 = r2') (hs : s2 = s2') (hq : q = q') :
    cellMul a b r r2 s2 q = cellMul a' b' r' r2' s2' q' := by
  obtain rfl : a = a' := funext ha
  obtain rfl : b = b' := funext hb
  obtain rfl : r = r' := funext hr
  subst h2 hs hq
  rfl

variable (m : (ℓ : Loc nD τ sig) → Buf (Elt Ideal) ℓ) (ρ : Dev nD → PrngReg)

/-- The body's loads and its one store are through whole-buffer rectangles: zero offsets. -/
theorem hz : (![0, 0] : Fin 2 → Nat) = fun _ => 0 := funext fun a => by fin_cases a <;> rfl

/-- The printed index maps, decided over the 64 grid points: which block of each input goes with the output's block. -/
theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = 0
    ∧ win0_6.index t (0 : Fin 2) ≤ 7 ∧ win0_6.index t (1 : Fin 2) ≤ 7 :=
  (by decide +kernel : ∀ t : Fin grid0.N, _)

/-- Every block index of the 8 × 8 box is some point's. -/
theorem idx_onto : ∀ (q0 : Fin 8) (q1 : Fin 8), ∃ t : Fin cfg0.N, win0_6.index t = ![q0.val, q1.val] :=
  (by decide +kernel : ∀ (q0 : Fin 8) (q1 : Fin 8), ∃ t : Fin grid0.N, win0_6.index t = ![q0.val, q1.val])

/-! ## Each input block read where the output's block says -/

theorem read0 (c : Dev nD) (t : Fin cfg0.N) (p : Fin 1024) (k : Fin 2048) (A : Fin 8192)
    (hA : A.val = win0_6.index t (0 : Fin 2) * 1024 + p.val) :
    iblk m c 0 t (ix2 p k) = (V m c main_arg0 : S8192x2048.Idx → EReal) (ix2 A k) := by
  obtain ⟨e00, e01, -⟩ := idx_facts t
  unfold iblk
  rw [View.read_apply]
  show (V m c main_arg0 : S8192x2048.Idx → EReal) _ = V m c main_arg0 _
  refine congrArg (V m c main_arg0 : S8192x2048.Idx → EReal) (funext fun a => Fin.ext ?_)
  match a with
  | ⟨0, _⟩ => show win0_0.index t (0 : Fin 2) * 1024 + 1 * p.val = A.val; rw [hA, e00]; omega
  | ⟨1, _⟩ => show win0_0.index t (1 : Fin 2) * 2048 + 1 * k.val = k.val; rw [e01]; omega

theorem read1 (c : Dev nD) (t : Fin cfg0.N) (q : Fin 256) (k : Fin 2048) (J : Fin 2048)
    (hJ : J.val = win0_6.index t (1 : Fin 2) * 256 + q.val) :
    iblk m c 1 t (ix2 q k) = (V m c main_arg1 : S2048x2048.Idx → EReal) (ix2 J k) := by
  obtain ⟨-, -, e10, e11, -⟩ := idx_facts t
  unfold iblk
  rw [View.read_apply]
  show (V m c main_arg1 : S2048x2048.Idx → EReal) _ = V m c main_arg1 _
  refine congrArg (V m c main_arg1 : S2048x2048.Idx → EReal) (funext fun a => Fin.ext ?_)
  match a with
  | ⟨0, _⟩ => show win0_1.index t (0 : Fin 2) * 256 + 1 * q.val = J.val; rw [hJ, e10]; omega
  | ⟨1, _⟩ => show win0_1.index t (1 : Fin 2) * 2048 + 1 * k.val = k.val; rw [e11]; omega

theorem read2 (c : Dev nD) (t : Fin cfg0.N) (k : Fin 2048) :
    iblk m c 2 t (ix2 (0 : Fin 1) k) = (V m c main_v3 : S1x2048.Idx → EReal) (ix2 (0 : Fin 1) k) := by
  obtain ⟨-, -, -, -, e20, e21, -⟩ := idx_facts t
  unfold iblk
  rw [View.read_apply]
  show (V m c main_v3 : S1x2048.Idx → EReal) _ = V m c main_v3 _
  refine congrArg (V m c main_v3 : S1x2048.Idx → EReal) (funext fun a => Fin.ext ?_)
  match a with
  | ⟨0, _⟩ => show win0_2.index t (0 : Fin 2) * 1 + 1 * 0 = 0; rw [e20]
  | ⟨1, _⟩ => show win0_2.index t (1 : Fin 2) * 2048 + 1 * k.val = k.val; rw [e21]; omega

theorem read3 (c : Dev nD) (t : Fin cfg0.N) (q : Fin 256) (J : Fin 2048)
    (hJ : J.val = win0_6.index t (1 : Fin 2) * 256 + q.val) :
    iblk m c 3 t (ix2 (0 : Fin 1) q) = (V m c main_v4 : S1x2048.Idx → EReal) (ix2 (0 : Fin 1) J) := by
  obtain ⟨-, -, -, -, -, -, e30, e31, -⟩ := idx_facts t
  unfold iblk
  rw [View.read_apply]
  show (V m c main_v4 : S1x2048.Idx → EReal) _ = V m c main_v4 _
  refine congrArg (V m c main_v4 : S1x2048.Idx → EReal) (funext fun a => Fin.ext ?_)
  match a with
  | ⟨0, _⟩ => show win0_3.index t (0 : Fin 2) * 1 + 1 * 0 = 0; rw [e30]
  | ⟨1, _⟩ => show win0_3.index t (1 : Fin 2) * 256 + 1 * q.val = J.val; rw [hJ, e31]; omega

theorem read4 (c : Dev nD) (t : Fin cfg0.N) (q : Fin 256) (J : Fin 2048)
    (hJ : J.val = win0_6.index t (1 : Fin 2) * 256 + q.val) :
    iblk m c 4 t (ix2 (0 : Fin 1) q) = (V m c main_v12 : S1x2048.Idx → EReal) (ix2 (0 : Fin 1) J) := by
  obtain ⟨-, -, -, -, -, -, -, -, e40, e41, -⟩ := idx_facts t
  unfold iblk
  rw [View.read_apply]
  show (V m c main_v12 : S1x2048.Idx → EReal) _ = V m c main_v12 _
  refine congrArg (V m c main_v12 : S1x2048.Idx → EReal) (funext fun a => Fin.ext ?_)
  match a with
  | ⟨0, _⟩ => show win0_4.index t (0 : Fin 2) * 1 + 1 * 0 = 0; rw [e40]
  | ⟨1, _⟩ => show win0_4.index t (1 : Fin 2) * 256 + 1 * q.val = J.val; rw [hJ, e41]; omega

theorem read5 (c : Dev nD) (t : Fin cfg0.N) :
    iblk m c 5 t (ix2 (0 : Fin 1) (0 : Fin 1)) = (V m c main_v7 : S1x1.Idx → EReal) (ix2 (0 : Fin 1) (0 : Fin 1)) := by
  obtain ⟨-, -, -, -, -, -, -, -, -, -, e50, e51, -⟩ := idx_facts t
  unfold iblk
  rw [View.read_apply]
  show (V m c main_v7 : S1x1.Idx → EReal) _ = V m c main_v7 _
  refine congrArg (V m c main_v7 : S1x1.Idx → EReal) (funext fun a => Fin.ext ?_)
  match a with
  | ⟨0, _⟩ => show win0_5.index t (0 : Fin 2) * 1 + 1 * 0 = 0; rw [e50]
  | ⟨1, _⟩ => show win0_5.index t (1 : Fin 2) * 1 + 1 * 0 = 0; rw [e51]

/-! ## What a point writes back, the cover, the array -/

/-- WHAT POINT `t` WRITES BACK is block `t` of `outOf` of the six arrays as the launch finds them. -/
theorem flushed_eq (c : Dev nD) (t : Fin cfg0.N) :
    (dats m 0 c).flushed 6 t = ((cfg0.win 6).blk t).view.read (Elt Ideal)
      (outOf (V m c main_arg0) (V m c main_arg1) (V m c main_v3) (V m c main_v4) (V m c main_v12) (V m c main_v7)) := by
  rw [Cert.KernelIdeal.Value.flushed6]
  unfold out0_6
  rw [View.canon_unit_zero hz]
  simp only [View.ld_unit_zero (S := S1x2048) hz, View.ld_unit_zero (S := S1x256) hz, View.ld_unit_zero (S := S1x1) hz,
    View.ld_unit_zero (S := S1024x2048) hz, View.ld_unit_zero (S := S256x2048) hz]
  obtain ⟨-, -, -, -, -, -, -, -, -, -, -, -, b0, b1⟩ := idx_facts t
  refine funext fun (y : S1024x256.Idx) => ?_
  obtain ⟨p, q, rfl⟩ : ∃ (p : Fin 1024) (q : Fin 256), y = ix2 p q := ⟨y 0, y 1, eq_ix2 y⟩
  have hp := p.isLt
  have hq := q.isLt
  have hemb : ((cfg0.win 6).blk t).view.emb (ix2 p q)
      = (ix2 (⟨win0_6.index t (0 : Fin 2) * 1024 + p.val, by omega⟩ : Fin 8192) (⟨win0_6.index t (1 : Fin 2) * 256 + q.val, by omega⟩ : Fin 2048) : S8192x2048.Idx) :=
    funext fun a => Fin.ext (by
      match a with
      | ⟨0, _⟩ => show win0_6.index t (0 : Fin 2) * 1024 + 1 * p.val = win0_6.index t (0 : Fin 2) * 1024 + p.val; omega
      | ⟨1, _⟩ => show win0_6.index t (1 : Fin 2) * 256 + 1 * q.val = win0_6.index t (1 : Fin 2) * 256 + q.val; omega)
  show k0_pay1 (F := Ideal) (iblk m c 2 t) (iblk m c 3 t) (iblk m c 4 t) (iblk m c 5 t) (iblk m c 0 t) (iblk m c 1 t) (ix2 p q)
      = outOf (V m c main_arg0) (V m c main_arg1) (V m c main_v3) (V m c main_v4) (V m c main_v12) (V m c main_v7)
          (((cfg0.win 6).blk t).view.emb (ix2 p q))
  rw [hemb, outOf_apply]
  refine (pay_apply (iblk m c 2 t) (iblk m c 3 t) (iblk m c 4 t) (iblk m c 5 t) (iblk m c 0 t) (iblk m c 1 t) p q).trans ?_
  unfold cellAt
  exact cellMul_congr (fun k => read0 m c t p k _ rfl) (fun k => read1 m c t q k _ rfl) (fun k => read2 m c t k)
    (read3 m c t q _ rfl) (read4 m c t q _ rfl) (read5 m c t)

/-- An index of the result is in point `t`'s block iff each coordinate is in the block's range on its axis. -/
theorem mem_blk (t : Fin cfg0.N) (i : S8192x2048.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v13).slice (win0_6.rect t)).set ↔ _
  rw [View.set_slice_whole, Rect.mem_set_unit]
  exact Iff.rfl

/-- The 64 blocks cover the result: entry `(A, J)` is in the block of the point with block index `(A / 1024, J / 256)`. -/
theorem cover (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ := idx_onto ⟨(i 0).val / 1024, by omega⟩ ⟨(i 1).val / 256, by omega⟩
  have q0 : win0_6.index t (0 : Fin 2) = (i 0).val / 1024 := congrFun ht 0
  have q1 : win0_6.index t (1 : Fin 2) = (i 1).val / 256 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 256 ≤ (i 1).val ∧ (i 1).val < win0_6.index t (1 : Fin 2) * 256 + 256; omega

/-- The kernel's result as a function of the four arguments: the host's four arrays put in. -/
def kernelOut (x0 : FVec Ideal S8192x2048 .f32) (x1 : FVec Ideal S2048x2048 .f32) (x2 : FVec Ideal S2048 .f32)
    (x3 : FVec Ideal S_ .f32) : FVec Ideal S8192x2048 .f32 :=
  outOf x0 x1 (recipRow x2) (recipSqRow x2) (sqnormRow x1 x2) (piOverP x3)

/-- THE ARRAY after the run. -/
theorem final (c : Dev nD) : (dats m 0 c).arrAt 6 cfg0.N
    = kernelOut (m ((c : Thread nD τ).loc main_arg0)) (m ((c : Thread nD τ).loc main_arg1)) (m ((c : Thread nD τ).loc main_arg2))
        (m ((c : Thread nD τ).loc main_arg3)) := by
  rw [(dats m 0 c).arrAt_eq_of_cover 6 _ (fun t _ => flushed_eq m c t) cover]
  unfold kernelOut
  rw [V_main_arg0, V_main_arg1, V_recip, V_recipSq, V_sqnorm, V_piOverP]

/-- The kernel's run, read: the result array at `kernelOut` of the arguments, the arguments unchanged. -/
theorem run : θ_run defs (onTc (τ := τ) (main (F := Ideal))) ⟨m, fun _ => 0, ρ⟩ fun r => ∀ c : Dev nD,
      r.2.mem ((c : Thread nD τ).loc main_v13) = kernelOut (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Periodic.KernelSide

end
-- ==== Proof.RefCell.lean ====
import proofs.«168542_j12438225289613_2_alg».proof.Proof.Gen.ReferenceIdeal.Read
import proofs.«168542_j12438225289613_2_alg».proof.Proof.CellLaw
import Idealize.ShloMosaic.Lib.ValueIdx
import Idealize.ShloMosaic.PureOps.Ideal.Laws

/-!
# The reference's result at one index

The reference divides both operands by the scales `e^{x2_k}`, takes the two squared row norms (each a sum started
from the zero word) and the matrix of inner products, forms the clamped distance, and returns
`exp (−2 · sin² (π'·D / e^{x3}) / (e^{x2_j})²)`. Read at `(a, j)` through the generated one-operation-at-a-time
lemmas this is the quotient-arrangement cell (`Cert.Periodic.cellDiv`) of row `a` of the first operand and row `j`
of the second: every broadcast reads the one entry its index names.
-/

noncomputable section

namespace Cert.Periodic.RefSide

open Cert.ReferenceIdeal Cert.ReferenceIdeal.Gen Cert.ReferenceIdeal.Read Idealize.ShloMosaic Idealize.ShloMosaic.ValueIdx Cert.Periodic

variable (x0 : FVec Ideal S8192x2048 .f32) (x1 : FVec Ideal S2048x2048 .f32) (x2 : FVec Ideal S2048 .f32) (x3 : FVec Ideal S_ .f32)

/-- The first operand divided by the scales, at `(a, k)`. -/
theorem scaled0_apply (a : Fin 8192) (k : Fin 2048) :
    val_main_v4 (F := Ideal) x0 x2 (ix2 a k) = Ideal.div (x0 (ix2 a k)) (Ideal.exp (x2 (ix1 k))) := by
  rw [val_main_v4_apply, val_main_v3_apply, val_main_v2_apply, val_main_v0_apply]
  have e : idx_main_v2 (idx_main_v3 (ix2 a k)) = ix1 k := funext fun d => Fin.ext (by match d with | ⟨0, _⟩ => rfl)
  rw [e]; rfl

/-- The second operand divided by the scales, at `(j, k)`. -/
theorem scaled1_apply (j k : Fin 2048) :
    val_main_v7 (F := Ideal) x1 x2 (ix2 j k) = Ideal.div (x1 (ix2 j k)) (Ideal.exp (x2 (ix1 k))) := by
  rw [val_main_v7_apply, val_main_v6_apply, val_main_v5_apply, val_main_v0_apply]
  have e : idx_main_v5 (idx_main_v6 (ix2 j k)) = ix1 k := funext fun d => Fin.ext (by match d with | ⟨0, _⟩ => rfl)
  rw [e]; rfl

/-- The squared norm of row `a` of the scaled first operand. -/
theorem sqnorm0_apply (a : Fin 8192) :
    val_main_v9 (F := Ideal) x0 x2 (ix1 a)
      = wZero + ∑ k : Fin 2048, Ideal.div (x0 (ix2 a k)) (Ideal.exp (x2 (ix1 k))) * Ideal.div (x0 (ix2 a k)) (Ideal.exp (x2 (ix1 k))) := by
  rw [val_main_v9_apply]
  have e : ∀ k : Fin 2048, idx_main_v9 (ix1 a) k = ix2 a k := fun k => funext fun d => Fin.ext (by match d with | ⟨0, _⟩ => rfl | ⟨1, _⟩ => rfl)
  simp only [e, val_main_v8_apply, scaled0_apply]
  rfl

/-- The squared norm of row `j` of the scaled second operand. -/
theorem sqnorm1_apply (j : Fin 2048) :
    val_main_v12 (F := Ideal) x1 x2 (ix1 j)
      = wZero + ∑ k : Fin 2048, Ideal.div (x1 (ix2 j k)) (Ideal.exp (x2 (ix1 k))) * Ideal.div (x1 (ix2 j k)) (Ideal.exp (x2 (ix1 k))) := by
  rw [val_main_v12_apply]
  have e : ∀ k : Fin 2048, idx_main_v12 (ix1 j) k = ix2 j k := fun k => funext fun d => Fin.ext (by match d with | ⟨0, _⟩ => rfl | ⟨1, _⟩ => rfl)
  simp only [e, val_main_v11_apply, scaled1_apply]
  rfl

/-- The inner product of row `a` of the scaled first operand with row `j` of the scaled second. -/
theorem inner_apply (a : Fin 8192) (j : Fin 2048) :
    val_main_v14 (F := Ideal) x0 x1 x2 (ix2 a j)
      = ∑ k : Fin 2048, Ideal.div (x0 (ix2 a k)) (Ideal.exp (x2 (ix1 k))) * Ideal.div (x1 (ix2 j k)) (Ideal.exp (x2 (ix1 k))) := by
  rw [val_main_v14_apply]
  have el : ∀ k : Fin 2048, lidx_main_v14 (ix2 a j) k = ix2 a k := fun k => funext fun d => Fin.ext (by match d with | ⟨0, _⟩ => rfl | ⟨1, _⟩ => rfl)
  have er : ∀ k : Fin 2048, ridx_main_v14 (ix2 a j) k = ix2 j k := fun k => funext fun d => Fin.ext (by match d with | ⟨0, _⟩ => rfl | ⟨1, _⟩ => rfl)
  simp only [el, er, scaled0_apply, scaled1_apply]

/-- The clamped distance at `(a, j)`. -/
theorem dist_apply (a : Fin 8192) (j : Fin 2048) :
    val_main_v23 (F := Ideal) x0 x1 x2 (ix2 a j)
      = dist (wZero + ∑ k : Fin 2048, Ideal.div (x0 (ix2 a k)) (Ideal.exp (x2 (ix1 k))) * Ideal.div (x0 (ix2 a k)) (Ideal.exp (x2 (ix1 k))))
          (wZero + ∑ k : Fin 2048, Ideal.div (x1 (ix2 j k)) (Ideal.exp (x2 (ix1 k))) * Ideal.div (x1 (ix2 j k)) (Ideal.exp (x2 (ix1 k))))
          (∑ k : Fin 2048, Ideal.div (x0 (ix2 a k)) (Ideal.exp (x2 (ix1 k))) * Ideal.div (x1 (ix2 j k)) (Ideal.exp (x2 (ix1 k)))) := by
  rw [val_main_v23_apply, val_main_v22_apply, val_main_v20_apply, val_main_v17_apply, val_main_v19_apply, val_main_v15_apply,
    val_main_v10_apply, val_main_v16_apply, val_main_v13_apply, val_main_v18_apply, val_main_cst_1_apply, val_main_v21_apply,
    val_main_cst_2_apply, inner_apply]
  have e1 : idx_main_v10 (idx_main_v15 (ix2 a j)) = ix1 a := funext fun d => Fin.ext (by match d with | ⟨0, _⟩ => rfl)
  have e2 : idx_main_v13 (idx_main_v16 (ix2 a j)) = ix1 j := funext fun d => Fin.ext (by match d with | ⟨0, _⟩ => rfl)
  rw [e1, e2, sqnorm0_apply, sqnorm1_apply]
  rfl

/-- THE REFERENCE'S RESULT at `(a, j)`: the quotient-arrangement cell. -/
theorem result_apply (a : Fin 8192) (j : Fin 2048) :
    val_main_v36 (F := Ideal) x0 x1 x2 x3 (ix2 a j)
      = cellDiv (fun k => x0 (ix2 a k)) (fun k => x1 (ix2 j k)) (fun k => Ideal.exp (x2 (ix1 k))) (Ideal.exp (x2 (ix1 j))) (Ideal.exp (x3 ix0)) := by
  unfold cellDiv
  rw [val_main_v36_apply, val_main_v35_apply, val_main_v31_apply, val_main_v30_apply, val_main_cst_4_apply, val_main_v29_apply,
    val_main_v28_apply, val_main_v27_apply, val_main_v25_apply, val_main_v24_apply, val_main_cst_3_apply, val_main_v26_apply,
    val_main_v1_apply, val_main_v34_apply, val_main_v33_apply, val_main_v32_apply, val_main_v0_apply, dist_apply]
  have e3 : idx_main_v26 (ix2 a j) = ix0 := eq_ix0 _
  have e4 : idx_main_v33 (idx_main_v34 (ix2 a j)) = ix1 j := funext fun d => Fin.ext (by match d with | ⟨0, _⟩ => rfl)
  rw [e3, e4]
  rfl

end Cert.Periodic.RefSide

end
-- ==== Proof.Finite.lean ====
import proofs.«168542_j12438225289613_2_alg».proof.Pre_finite_inputs
import Idealize.ShloMosaic.PureOps.Ideal.Laws
import Idealize.ShloMosaic.Lib.ReduceAll
import Idealize.ShloMosaic.Lib.ValueIdx

/-!
# From the precondition to real numbers

The precondition is the conjunction of four `all (|x| < +∞)`, one per argument. Read at the extended reals, an
entry `x` with `max x (−x) < ⊤` is neither `⊤` nor `⊥`, so it is a real number. Only the third and fourth
arguments (the log-scales and the log-period) are needed as reals: their exponentials are the divisors.
-/

noncomputable section

namespace Cert.Periodic

open Idealize.ShloMosaic Idealize.ShloMosaic.ValueIdx Cert.Pre_finite_inputs

variable [Cert.Pre_finite_inputs.Facts]

instance subsingleton_scalar_idx : Subsingleton S_.Idx := ⟨fun _ _ => funext fun d => d.elim0⟩

/-- An extended real whose absolute value is below the `+∞` word is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  induction x using EReal.rec with
  | bot => simp [Ideal.cmp] at h'
  | top => simp [Ideal.cmp] at h'
  | coe r => exact ⟨r, rfl⟩

/-- Under the precondition every log-scale is a real number, and so is the log-period. -/
theorem scales_real (x0 : FVec Ideal S8192x2048 .f32) (x1 : FVec Ideal S2048x2048 .f32) (x2 : FVec Ideal S2048 .f32)
    (x3 : FVec Ideal S_ .f32) (h : fn (F := Ideal) x0 x1 x2 x3 = fun _ => 1#1) :
    (∀ k : S2048.Idx, ∃ r : ℝ, (x2 k : EReal) = (r : EReal)) ∧ ∃ r : ℝ, (x3 ix0 : EReal) = (r : EReal) := by
  have h0 := congrFun h ix0
  dsimp only [fn, fn_part1] at h0
  obtain ⟨h012, h3⟩ := IntOp.andi_eq_one.1 h0
  obtain ⟨_, h2⟩ := IntOp.andi_eq_one.1 h012
  refine ⟨fun k => ?_, ?_⟩
  · exact real_of_abs_lt_inf (x2 k) (Host.reduce_andi_all _ _ _ _ _ h2 k)
  · exact real_of_abs_lt_inf (x3 ix0) (Host.reduce_andi_all _ _ _ _ _ h3 ix0)

end Cert.Periodic

end
-- ==== Proof.Bridge.lean ====
import proofs.«168542_j12438225289613_2_alg».proof.Proof.KernelArray
import proofs.«168542_j12438225289613_2_alg».proof.Proof.RefCell
import proofs.«168542_j12438225289613_2_alg».proof.Proof.Finite

/-!
# The two results are one function

With every log-scale and the log-period a real number, the kernel's result array (the reciprocal arrangement, cell by
cell, with the host's four prepared arrays read at their indices) is the reference's last stage (the quotient
arrangement): at `(a, j)` both are a cell of row `a` of the first operand and row `j` of the second, and the two
arrangements agree by `Cert.Periodic.cellMul_eq_cellDiv`.
-/

noncomputable section

namespace Cert.Periodic

open Idealize.ShloMosaic Idealize.ShloMosaic.ValueIdx

theorem kernelOut_eq_ref (x0 : FVec Ideal Cert.KernelIdeal.S8192x2048 .f32) (x1 : FVec Ideal Cert.KernelIdeal.S2048x2048 .f32)
    (x2 : FVec Ideal Cert.KernelIdeal.S2048 .f32) (x3 : FVec Ideal Cert.KernelIdeal.S_ .f32)
    (h2 : ∀ k : Cert.KernelIdeal.S2048.Idx, ∃ r : ℝ, (x2 k : EReal) = (r : EReal)) (h3 : ∃ r : ℝ, (x3 ix0 : EReal) = (r : EReal)) :
    KernelSide.kernelOut x0 x1 x2 x3 = Cert.ReferenceIdeal.Read.val_main_v36 (F := Ideal) x0 x1 x2 x3 := by
  funext i
  obtain ⟨a, j, rfl⟩ : ∃ (a : Fin 8192) (j : Fin 2048), i = ix2 a j := ⟨i 0, i 1, eq_ix2 i⟩
  choose l hl using h2
  obtain ⟨p, hp⟩ := h3
  rw [RefSide.result_apply]
  unfold KernelSide.kernelOut
  rw [KernelSide.outOf_apply]
  unfold KernelSide.cellAt
  refine (KernelSide.cellMul_congr (fun _ => rfl) (fun _ => rfl) (fun k => KernelSide.recipRow_apply x2 0 k)
    (KernelSide.recipSqRow_apply x2 0 j) (KernelSide.sqnormRow_apply x1 x2 0 j) (KernelSide.piOverP_apply x3 _)).trans ?_
  obtain rfl : x2 = fun k => ((l k : ℝ) : EReal) := funext hl
  obtain rfl : x3 = fun _ => ((p : ℝ) : EReal) := funext fun k => (congrArg x3 (eq_ix0 k)).trans hp
  exact cellMul_eq_cellDiv (fun k => x0 (ix2 a k)) (fun k => x1 (ix2 j k)) (fun k => l (ix1 k)) p j

end Cert.Periodic

end
-- ==== Proof.lean ====
/- The proof of `Cert.Claim`: a periodic kernel `exp (−2 · sin² (π'·D/P) / L_j²)` of the scaled Euclidean distance
   `D = √ max (‖a/L‖² + ‖b/L‖² − 2⟨a/L, b/L⟩, 0)` between rows of two matrices, as a tiled kernel that multiplies by
   reciprocals the host prepares, against a plain reference that divides.
   The three frames are the generated ones (the reference's is its generated run with the result dropped); the ideal pass
   rewrote nothing, so `preserves` is `True`. For `algebraic`: the kernel's 64 blocks are restrictions of one function
   of the arrays the launch finds (Proof/KernelArray.lean, over the body's value at an index, Proof/KernelCell.lean, and the
   host's four prepared arrays, Proof/HostPrefix.lean); the reference's last stage at an index is Proof/RefCell.lean; the
   precondition makes the log-scales and the log-period real numbers (Proof/Finite.lean), so the scales and the period are
   nonzero reals and the two arrangements of a cell agree (Proof/CellLaw.lean, joined in Proof/Bridge.lean). -/
import proofs.«168542_j12438225289613_2_alg».proof.Defs
import proofs.«168542_j12438225289613_2_alg».proof.Proof.Gen.Kernel
import proofs.«168542_j12438225289613_2_alg».proof.Proof.Gen.Kernel.Skeleton
import proofs.«168542_j12438225289613_2_alg».proof.Proof.Gen.Kernel.Launch
import proofs.«168542_j12438225289613_2_alg».proof.Proof.Gen.Kernel.Points
import proofs.«168542_j12438225289613_2_alg».proof.Proof.Gen.Kernel.Frame
import proofs.«168542_j12438225289613_2_alg».proof.Proof.Gen.KernelIdeal
import proofs.«168542_j12438225289613_2_alg».proof.Proof.Gen.KernelIdeal.Skeleton
import proofs.«168542_j12438225289613_2_alg».proof.Proof.Gen.KernelIdeal.Launch
import proofs.«168542_j12438225289613_2_alg».proof.Proof.Gen.KernelIdeal.Points
import proofs.«168542_j12438225289613_2_alg».proof.Proof.Gen.KernelIdeal.Frame
import proofs.«168542_j12438225289613_2_alg».proof.Proof.Gen.ReferenceIdeal
import proofs.«168542_j12438225289613_2_alg».proof.Proof.Gen.Pre_finite_inputs
import proofs.«168542_j12438225289613_2_alg».proof.Proof.Gen.KernelIdeal.Value
import proofs.«168542_j12438225289613_2_alg».proof.Proof.Gen.ReferenceIdeal.Run
import proofs.«168542_j12438225289613_2_alg».proof.Proof.Gen.ReferenceIdeal.Read
import proofs.«168542_j12438225289613_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the kernel's function of the arguments: the kernel by its run read block
    by block, the reference because under the precondition its last stage is that function. -/
theorem algebraic : Cert.algebraic_KernelIdeal_ReferenceIdeal := by
  intro m ρ m' ρ' hpre hagree
  refine ⟨fun c => Cert.Periodic.KernelSide.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Periodic.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2]
  obtain ⟨h2, h3⟩ := Cert.Periodic.scales_real _ _ _ _ (hpre c)
  exact (Cert.Periodic.kernelOut_eq_ref _ _ _ _ h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
